-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x256x3 : Shape := ⟨4, ![64, 256, 256, 3]⟩
abbrev S768x768 : Shape := ⟨2, ![768, 768]⟩
abbrev S768 : Shape := ⟨1, ![768]⟩
abbrev S256x768 : Shape := ⟨2, ![256, 768]⟩
abbrev S_ : Shape := ⟨0, ![]⟩

class Facts : Prop where
  bcast_S_S64x256x256x3 : S_.BroadcastsInDim S64x256x256x3 (![] : Fin 0 → Fin S64x256x256x3.rank)
  reducesTo_S64x256x256x3_S_d0_1_2_3 : S64x256x256x3.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S256x768 : S_.BroadcastsInDim S256x768 (![] : Fin 0 → Fin S256x768.rank)
  reducesTo_S256x768_S_d0_1 : S256x768.ReducesTo [0, 1] S_

variable [Facts]

def fn_part1 {F : FTy → Type} [FloatOps F] (main_v13 : IVec S_ 1) (main_v16 : IVec S256x768 1) : IVec S_ 1 :=
  let main_c_5 : IVec S_ 1 := constantI S_ 1 1#1
  let main_v17 : IVec S_ 1 := (fun x v => Host.reduce IntOp.andi x v reducesTo_S256x768_S_d0_1 h_S_) main_v16 main_c_5
  let main_v18 : IVec S_ 1 := andi main_v13 main_v17
  main_v18

def fn {F : FTy → Type} [FloatOps F] (main_arg0 : FVec F S64x256x256x3 .f32) (main_arg1 : FVec F S768x768 .f32) (main_arg2 : FVec F S768 .f32) (main_arg3 : FVec F S256x768 .f32) : IVec S_ 1 :=
  let main_v0 : FVec F S64x256x256x3 .f32 := Host.absf main_arg0
  let main_cst : FVec F S_ .f32 := constant S_ .f32 0x7F800000#32
  let main_v1 : FVec F S64x256x256x3 .f32 := broadcastInDim S64x256x256x3 ![] bcast_S_S64x256x256x3 main_cst
  let main_v2 : IVec S64x256x256x3 1 := cmpf .olt main_v0 main_v1
  let main_c : IVec S_ 1 := constantI S_ 1 1#1
  let main_v3 : IVec S_ 1 := (fun x v => Host.reduce IntOp.andi x v reducesTo_S64x256x256x3_S_d0_1_2_3 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S256x768 .f32 := Host.absf main_arg3
  let main_cst_4 : FVec F S_ .f32 := constant S_ .f32 0x7F800000#32
  let main_v15 : FVec F S256x768 .f32 := broadcastInDim S256x768 ![] bcast_S_S256x768 main_cst_4
  let main_v16 : IVec S256x768 1 := cmpf .olt main_v14 main_v15
  fn_part1 (F := F) main_v13 main_v16
-- ==== Kernel.lean ====
abbrev S64x256x256x3 : Shape := ⟨4, ![64, 256, 256, 3]⟩
abbrev S768x768 : Shape := ⟨2, ![768, 768]⟩
abbrev S768 : Shape := ⟨1, ![768]⟩
abbrev S256x768 : Shape := ⟨2, ![256, 768]⟩
abbrev S64x16x16x16x16x3 : Shape := ⟨6, ![64, 16, 16, 16, 16, 3]⟩
abbrev S64x256x768 : Shape := ⟨3, ![64, 256, 768]⟩
abbrev S1x768 : Shape := ⟨2, ![1, 768]⟩
abbrev S8x256x768 : Shape := ⟨3, ![8, 256, 768]⟩
abbrev S2048x768 : Shape := ⟨2, ![2048, 768]⟩
abbrev S1x256x768 : Shape := ⟨3, ![1, 256, 768]⟩

abbrev nBuf : Space → Nat
  | .hbm => 13
  | .vmem => 6
  | .smem => 0
  | _ => 0

abbrev bufTy : (tb : Table) → Fin (tcTables nBuf tb) → BufTy
  | .hbm, ⟨0, _⟩ => ⟨S64x256x256x3, .f32⟩
  | .hbm, ⟨1, _⟩ => ⟨S768x768, .f32⟩
  | .hbm, ⟨2, _⟩ => ⟨S768, .f32⟩
  | .hbm, ⟨3, _⟩ => ⟨S256x768, .f32⟩
  | .hbm, ⟨4, _⟩ => ⟨S64x16x16x16x16x3, .f32⟩
  | .hbm, ⟨5, _⟩ => ⟨S64x16x16x16x16x3, .f32⟩
  | .hbm, ⟨6, _⟩ => ⟨S64x256x768, .f32⟩
  | .hbm, ⟨7, _⟩ => ⟨S64x256x768, .bf16⟩
  | .hbm, ⟨8, _⟩ => ⟨S768x768, .bf16⟩
  | .hbm, ⟨9, _⟩ => ⟨S1x768, .f32⟩
  | .hbm, ⟨10, _⟩ => ⟨S256x768, .f32⟩
  | .hbm, ⟨11, _⟩ => ⟨S256x768, .f32⟩
  | .hbm, ⟨12, _⟩ => ⟨S64x256x768, .f32⟩
  | .local _ .vmem, ⟨0, _⟩ => ⟨S8x256x768, .bf16⟩
  | .local _ .vmem, ⟨1, _⟩ => ⟨S8x256x768, .bf16⟩
  | .local _ .vmem, ⟨2, _⟩ => ⟨S768x768, .bf16⟩
  | .local _ .vmem, ⟨3, _⟩ => ⟨S256x768, .f32⟩
  | .local _ .vmem, ⟨4, _⟩ => ⟨S8x256x768, .f32⟩
  | .local _ .vmem, ⟨5, _⟩ => ⟨S8x256x768, .f32⟩
  | _, _ => ⟨S64x256x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x256x256x3_S64x16x16x16x16x3 : S64x256x256x3.ShapeCasts S64x16x16x16x16x3
  transposes_S64x16x16x16x16x3_S64x16x16x16x16x3_0_1_3_2_4_5 : S64x16x16x16x16x3.Transposes [0, 1, 3, 2, 4, 5] S64x16x16x16x16x3
  shapeCasts_S64x16x16x16x16x3_S64x256x768 : S64x16x16x16x16x3.ShapeCasts S64x256x768
  bitsLt_bf16_f32 : FTy.bits .bf16 < FTy.bits .f32
  bcast_S768_S1x768_1 : S768.BroadcastsInDim S1x768 (![1] : Fin 1 → Fin S1x768.rank)
  bcast_S1x768_S256x768_0_1 : S1x768.BroadcastsInDim S256x768 (![0, 1] : Fin 2 → Fin S256x768.rank)
  inb_S8x256x768_S8x256x768_0_0_0 : ∀ a, (![0, 0, 0] : Fin 3 → Nat) a + S8x256x768.size a ≤ S8x256x768.size a
  h_S8x256x768 : 0 < S8x256x768.numel
  shapeCasts_S8x256x768_S8x256x768 : S8x256x768.ShapeCasts S8x256x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  shapeCasts_S8x256x768_S2048x768 : S8x256x768.ShapeCasts S2048x768
  shapeCasts_S2048x768_S8x256x768 : S2048x768.ShapeCasts S8x256x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  shapeCasts_S256x768_S1x256x768 : S256x768.ShapeCasts S1x256x768
  broadcasts_S1x256x768_S8x256x768 : S1x256x768.Broadcasts S8x256x768
  dot_S2048x768_S768x768_S2048x768_1_0_0_1_n_n_wf : DotDims.WF S2048x768 S768x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x768.size a ≤ S64x256x768.size a
  hwx0_0 : ∀ i : grid0.Coords, EltTy.bits .bf16 = 32 ∨ (Rect.block (s := S64x256x768) S8x256x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S256x768.size a
  hwx0_2 : ∀ i : grid0.Coords, EltTy.bits .f32 = 32 ∨ (Rect.block (s := S256x768) S256x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x768.size a ≤ S64x256x768.size a
  hwx0_3 : ∀ i : grid0.Coords, EltTy.bits .f32 = 32 ∨ (Rect.block (s := S64x256x768) S8x256x768.size (cc0_transform_3 i) (hinb0_3 i)).WholeWords (EltTy.packing .f32)

variable [Facts₀]

def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf

abbrev win0_0 : Pipeline.Window sig grid0 :=
  Pipeline.Window.ofSpec (Memref.whole main_v3) S8x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S8x256x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x256x3 : Shape := ⟨4, ![64, 256, 256, 3]⟩
abbrev S768x768 : Shape := ⟨2, ![768, 768]⟩
abbrev S768 : Shape := ⟨1, ![768]⟩
abbrev S256x768 : Shape := ⟨2, ![256, 768]⟩
abbrev S64x16x16x16x16x3 : Shape := ⟨6, ![64, 16, 16, 16, 16, 3]⟩
abbrev S64x256x768 : Shape := ⟨3, ![64, 256, 768]⟩
abbrev S1x1x768 : Shape := ⟨3, ![1, 1, 768]⟩
abbrev S1x256x768 : Shape := ⟨3, ![1, 256, 768]⟩

abbrev nBuf : Space → Nat
  | .hbm => 14
  | .vmem => 0
  | .smem => 0
  | _ => 0

abbrev bufTy : (tb : Table) → Fin (tcTables nBuf tb) → BufTy
  | .hbm, ⟨0, _⟩ => ⟨S64x256x256x3, .f32⟩
  | .hbm, ⟨1, _⟩ => ⟨S768x768, .f32⟩
  | .hbm, ⟨2, _⟩ => ⟨S768, .f32⟩
  | .hbm, ⟨3, _⟩ => ⟨S256x768, .f32⟩
  | .hbm, ⟨4, _⟩ => ⟨S64x16x16x16x16x3, .f32⟩
  | .hbm, ⟨5, _⟩ => ⟨S64x16x16x16x16x3, .f32⟩
  | .hbm, ⟨6, _⟩ => ⟨S64x256x768, .f32⟩
  | .hbm, ⟨7, _⟩ => ⟨S64x256x768, .f32⟩
  | .hbm, ⟨8, _⟩ => ⟨S1x1x768, .f32⟩
  | .hbm, ⟨9, _⟩ => ⟨S64x256x768, .f32⟩
  | .hbm, ⟨10, _⟩ => ⟨S64x256x768, .f32⟩
  | .hbm, ⟨11, _⟩ => ⟨S1x256x768, .f32⟩
  | .hbm, ⟨12, _⟩ => ⟨S64x256x768, .f32⟩
  | .hbm, ⟨13, _⟩ => ⟨S64x256x768, .f32⟩
  | _, _ => ⟨S64x256x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S64x256x256x3_S64x16x16x16x16x3 : S64x256x256x3.ShapeCasts S64x16x16x16x16x3
  transposes_S64x16x16x16x16x3_S64x16x16x16x16x3_0_1_3_2_4_5 : S64x16x16x16x16x3.Transposes [0, 1, 3, 2, 4, 5] S64x16x16x16x16x3
  shapeCasts_S64x16x16x16x16x3_S64x256x768 : S64x16x16x16x16x3.ShapeCasts S64x256x768
  bcast_S768_S1x1x768_2 : S768.BroadcastsInDim S1x1x768 (![2] : Fin 1 → Fin S1x1x768.rank)
  bcast_S1x1x768_S64x256x768_0_1_2 : S1x1x768.BroadcastsInDim S64x256x768 (![0, 1, 2] : Fin 3 → Fin S64x256x768.rank)
  bcast_S256x768_S1x256x768_1_2 : S256x768.BroadcastsInDim S1x256x768 (![1, 2] : Fin 2 → Fin S1x256x768.rank)
  bcast_S1x256x768_S64x256x768_0_1_2 : S1x256x768.BroadcastsInDim S64x256x768 (![0, 1, 2] : Fin 3 → Fin S64x256x768.rank)
  dot_S64x256x768_S768x768_S64x256x768_2_0_01_1_n_n_wf : DotDims.WF S64x256x768 S768x768 S64x256x768 [2] [0] [0, 1] [1] [] []

variable [Facts₀]

def dot_S64x256x768_S768x768_S64x256x768_2_0_01_1_n_n : DotDims S64x256x768 S768x768 S64x256x768 where
  lhsContracting := [2]
  rhsContracting := [0]
  lhsNonContracting := [0, 1]
  rhsNonContracting := [1]
  lhsBatch := []
  rhsBatch := []
  wf := dot_S64x256x768_S768x768_S64x256x768_2_0_01_1_n_n_wf

class Facts : Prop extends Facts₀ where

variable [Facts]
-- ==== Proof.BodyLayout.lean ====
/-
  The three re-layings the kernel body applies around its matrix product, each read at an index over literal shapes.

  The body holds a block of 8 images: `[8, 256, 768]`. It folds the image axis into the patch axis to get one
  `[2048, 768]` matrix (row `256·p + n` is patch `n` of image `p`), multiplies, unfolds the product's rows back into
  `[8, 256, 768]`, and spreads the `[256, 768]` offsets over the 8 images through a leading unit axis. A shape cast
  keeps the row-major position of every element, which is all three facts need.
-/
import Idealize.ShloMosaic.Lib.Pipeline.Value
import Idealize.ShloMosaic.Lib.ValueIdx

namespace PatchEncoder

open Idealize.ShloMosaic Idealize.ShloMosaic.ValueIdx

variable {α : Type}

/-- The row of the folded matrix that holds patch `n` of image `p`. -/
abbrev foldRow (p : Fin 8) (n : Fin 256) : Fin 2048 := ⟨p.val * 256 + n.val, by have := p.isLt; have := n.isLt; omega⟩

/-- Folding images into rows: row `256·p + n`, column `d` of the folded block is entry `[p, n, d]` of the block. -/
theorem fold_apply (v : (⟨3, ![8, 256, 768]⟩ : Shape).Idx → α)
    (h : (⟨3, ![8, 256, 768]⟩ : Shape).ShapeCasts ⟨2, ![2048, 768]⟩) (p : Fin 8) (n : Fin 256) (d : Fin 768) :
    shapeCast ⟨2, ![2048, 768]⟩ v h (ix2 (foldRow p n) d) = v (ix3 p n d) := by
  refine shapeCast_apply v h _ _ ?_
  rw [Shape.rowMajor_val_three, Shape.rowMajor_val_two]
  rfl

/-- Unfolding rows back into images: entry `[p, n, e]` of the unfolded product is row `256·p + n`, column `e`. -/
theorem unfold_apply (v : (⟨2, ![2048, 768]⟩ : Shape).Idx → α)
    (h : (⟨2, ![2048, 768]⟩ : Shape).ShapeCasts ⟨3, ![8, 256, 768]⟩) (p : Fin 8) (n : Fin 256) (e : Fin 768) :
    shapeCast ⟨3, ![8, 256, 768]⟩ v h (ix3 p n e) = v (ix2 (foldRow p n) e) := by
  refine shapeCast_apply v h _ _ ?_
  rw [Shape.rowMajor_val_three, Shape.rowMajor_val_two]
  rfl

/-- The offsets spread over the images: every image `p` sees `off[n, e]`. -/
theorem spread_apply (v : (⟨2, ![256, 768]⟩ : Shape).Idx → α)
    (h₁ : (⟨2, ![256, 768]⟩ : Shape).ShapeCasts ⟨3, ![1, 256, 768]⟩)
    (h₂ : (⟨3, ![1, 256, 768]⟩ : Shape).Broadcasts ⟨3, ![8, 256, 768]⟩) (p : Fin 8) (n : Fin 256) (e : Fin 768) :
    broadcastTo ⟨3, ![8, 256, 768]⟩ (shapeCast ⟨3, ![1, 256, 768]⟩ v h₁) h₂ (ix3 p n e) = v (ix2 n e) := by
  rw [broadcastTo_apply _ h₂ (ix3 p n e) (ix3 (0 : Fin 1) n e) (fun a => by
    match a with
    | ⟨0, _⟩ => rfl
    | ⟨1, _⟩ => rfl
    | ⟨2, _⟩ => rfl)]
  refine shapeCast_apply v h₁ _ _ ?_
  rw [Shape.rowMajor_val_three, Shape.rowMajor_val_two]
  simp

end PatchEncoder
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.BodyValue.lean ====
/-
  What the kernel body stores, read at an index. The body takes a block of 8 images' patches `x0 : [8, 256, 768]`, the
  whole projection `x1 : [768, 768]` and the whole offsets `x2 : [256, 768]`, folds the images into the rows of one
  matrix, multiplies into a zero accumulator, unfolds, and adds the offsets spread over the images. At entry
  `[p, n, e]` that is

      (Σ_d x0[p, n, d] · x1[d, e]) + x2[n, e] :

  the product's row `256·p + n` is patch `n` of image `p`, and the product into a zero accumulator is the plain sum
  over the contracted coordinate.
-/
import proofs.«143749_j4526895530286_2_alg».proof.Proof.Gen.KernelIdeal.Skeleton
import proofs.«143749_j4526895530286_2_alg».proof.Proof.BodyLayout
import proofs.«143749_j4526895530286_2_alg».proof.Proof.LibMatmul2

noncomputable section

namespace Cert.KernelIdeal.BodyValue

open Cert.KernelIdeal Cert.KernelIdeal.Gen Idealize.ShloMosaic Idealize.ShloMosaic.ValueIdx PatchEncoder

/-- The stored block at `[p, n, e]`: patch `n` of the block's image `p` projected onto feature `e`, plus the offset. -/
theorem pay_apply (x0 : FVec Ideal S8x256x768 .bf16) (x1 : FVec Ideal S768x768 .bf16) (x2 : FVec Ideal S256x768 .f32)
    (p : Fin 8) (n : Fin 256) (e : Fin 768) :
    k0_pay1 (F := Ideal) x0 x1 x2 (ix3 p n e) = (∑ d : Fin 768, x0 (ix3 p n d) * x1 (ix2 d e)) + x2 (ix2 n e) := by
  unfold k0_pay1
  rw [addf_apply]
  simp only [shapeCast_self]
  rw [unfold_apply, spread_apply]
  refine congrArg (· + x2 (ix2 n e)) ?_
  refine (LibMatmul2.matmul_nn_apply _ none _ _ (foldRow p n) e).trans ?_
  exact Finset.sum_congr rfl fun d _ => by rw [fold_apply]

end Cert.KernelIdeal.BodyValue

end
-- ==== Proof.Encoded.lean ====
/-
  The patch encoder's result as ONE function of its arrays, index by index.

  `P[b, n, d]` is the batch of flattened image patches (64 images, 256 patches per image, 768 numbers per patch),
  `W[d, e]` the projection matrix, `pos[n, e]` the position embedding and `bias[e]` the bias. The encoder projects
  every patch and adds the two offsets:

      projected P W off [b, n, e] = (Σ_d P[b, n, d] · W[d, e]) + off[n, e]
      encoded P W bias pos        = projected P W (pos + bias along e).

  The kernel is handed the already added offsets `pos[n, e] + bias[e]` and adds them to the projection; the reference
  adds the bias to the projection first and the position embedding afterwards. On the extended reals addition is
  commutative and associative at every value, the infinities included, so the two orders give one number
  (`add_bias_then_pos`): no finiteness of the inputs is used.
-/
import Idealize.ShloMosaic.PureOps.Ideal.Laws
import Idealize.ShloMosaic.Lib.ValueIdx

noncomputable section

namespace PatchEncoder

open Idealize.ShloMosaic Idealize.ShloMosaic.ValueIdx

/-- A projected patch plus an offset that depends on the patch's position `n` and the output feature `e` only. -/
def projected (P : (⟨3, ![64, 256, 768]⟩ : Shape).Idx → EReal) (W : (⟨2, ![768, 768]⟩ : Shape).Idx → EReal)
    (off : (⟨2, ![256, 768]⟩ : Shape).Idx → EReal) : (⟨3, ![64, 256, 768]⟩ : Shape).Idx → EReal :=
  fun i => (∑ d : Fin 768, P (ix3 (i 0) (i 1) d) * W (ix2 d (i 2))) + off (ix2 (i 1) (i 2))

/-- The position embedding with the bias added along the feature axis: `pos[n, e] + bias[e]`. -/
def offsets (bias : (⟨1, ![768]⟩ : Shape).Idx → EReal) (pos : (⟨2, ![256, 768]⟩ : Shape).Idx → EReal) :
    (⟨2, ![256, 768]⟩ : Shape).Idx → EReal :=
  fun j => pos j + bias (ix1 (j 1))

/-- The encoder: projection, bias and position embedding. -/
def encoded (P : (⟨3, ![64, 256, 768]⟩ : Shape).Idx → EReal) (W : (⟨2, ![768, 768]⟩ : Shape).Idx → EReal)
    (bias : (⟨1, ![768]⟩ : Shape).Idx → EReal) (pos : (⟨2, ![256, 768]⟩ : Shape).Idx → EReal) :
    (⟨3, ![64, 256, 768]⟩ : Shape).Idx → EReal :=
  projected P W (offsets bias pos)

/-- Adding the bias and then the position embedding to `s` is adding their sum: addition of extended reals is
    commutative and associative everywhere. -/
theorem add_bias_then_pos (s b p : EReal) : (s + b) + p = s + (p + b) := by
  rw [add_assoc, add_comm b p]

/-- The encoder at an index, with the reference's order of the two additions. -/
theorem encoded_apply (P : (⟨3, ![64, 256, 768]⟩ : Shape).Idx → EReal) (W : (⟨2, ![768, 768]⟩ : Shape).Idx → EReal)
    (bias : (⟨1, ![768]⟩ : Shape).Idx → EReal) (pos : (⟨2, ![256, 768]⟩ : Shape).Idx → EReal)
    (i : (⟨3, ![64, 256, 768]⟩ : Shape).Idx) :
    encoded P W bias pos i
      = ((∑ d : Fin 768, P (ix3 (i 0) (i 1) d) * W (ix2 d (i 2))) + bias (ix1 (i 2))) + pos (ix2 (i 1) (i 2)) := by
  rw [add_bias_then_pos]
  rfl

end PatchEncoder

end
-- ==== Proof.Staged.lean ====
/-
  The three arrays the kernel's launch stages, as the operations before it leave them.

  * The patches: the images reshaped, transposed and reshaped into `[64, 256, 768]` (`patches`), then narrowed to a
    16-bit format, which changes nothing at the ideal values.
  * The projection: the argument narrowed to the 16-bit format, so the argument itself.
  * The offsets: the position embedding plus the bias spread over the 256 patch positions,
    `pos[n, e] + bias[e]` (`PatchEncoder.offsets`).
-/
import proofs.«143749_j4526895530286_2_alg».proof.Proof.Gen.KernelIdeal.Frame
import proofs.«143749_j4526895530286_2_alg».proof.Proof.Encoded
import Idealize.ShloMosaic.Lib.StableHlo.Run
import Idealize.ShloMosaic.Lib.Pipeline.Value
import Idealize.ShloMosaic.Lib.ValueIdx

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The images cut into 16 × 16 patches and each patch flattened: `[64, 256, 256, 3] → [64, 256, 768]`. -/
def patches (x : S64x256x256x3.Idx → EReal) : S64x256x768.Idx → EReal :=
  shapeCast S64x256x768
    (transpose S64x16x16x16x16x3 [0, 1, 3, 2, 4, 5]
      (shapeCast S64x16x16x16x16x3 x shapeCasts_S64x256x256x3_S64x16x16x16x16x3)
      transposes_S64x16x16x16x16x3_S64x16x16x16x16x3_0_1_3_2_4_5)
    shapeCasts_S64x16x16x16x16x3_S64x256x768

/-- The launch finds the patches of the image argument in its first array. -/
theorem V_patches (c : Dev nD) :
    (V m c main_v3 : S64x256x768.Idx → EReal) = patches (m ((c : Thread nD τ).loc main_arg0)) := by
  have e : (V m c main_v3 : S64x256x768.Idx → EReal)
      = truncf (F := Ideal) .bf16 (patches (m ((c : Thread nD τ).loc main_arg0))) bitsLt_bf16_f32 := by
    dsimp only [Gen.V, Gen.hostOps0]; after_results <;> rfl
  rw [e]
  rfl

/-- The launch finds the projection argument in its second array. -/
theorem V_projection (c : Dev nD) :
    (V m c main_v4 : S768x768.Idx → EReal) = m ((c : Thread nD τ).loc main_arg1) := by
  have e : (V m c main_v4 : S768x768.Idx → EReal)
      = truncf (F := Ideal) .bf16 (m ((c : Thread nD τ).loc main_arg1) : S768x768.Idx → EReal) bitsLt_bf16_f32 := by
    dsimp only [Gen.V, Gen.hostOps0]; after_results <;> rfl
  rw [e]
  rfl

/-- The launch finds the position embedding plus the bias in its third array. -/
theorem V_offsets (c : Dev nD) :
    (V m c main_v7 : S256x768.Idx → EReal)
      = PatchEncoder.offsets (m ((c : Thread nD τ).loc main_arg2)) (m ((c : Thread nD τ).loc main_arg3)) := by
  have e : (V m c main_v7 : S256x768.Idx → EReal)
      = addf (F := Ideal) (s := S256x768) (φ := .f32) (m ((c : Thread nD τ).loc main_arg3))
          (broadcastInDim S256x768 ![0, 1] bcast_S1x768_S256x768_0_1
            (broadcastInDim S1x768 ![1] bcast_S768_S1x768_1 (m ((c : Thread nD τ).loc main_arg2)))) := by
    dsimp only [Gen.V, Gen.hostOps0]; after_results <;> rfl
  rw [e]
  funext j
  rw [addf_apply,
    broadcastInDim_apply _ bcast_S1x768_S256x768_0_1 _ j (ix2 (0 : Fin 1) (j 1)) (fun a => by
      match a with
      | ⟨0, _⟩ => rfl
      | ⟨1, _⟩ => rfl),
    broadcastInDim_apply _ bcast_S768_S1x768_1 _ (ix2 (0 : Fin 1) (j 1)) (ix1 (j 1)) (fun a => by
      match a with
      | ⟨0, _⟩ => rfl)]
  rfl

end Cert.KernelIdeal.Staged

end
-- ==== Proof.KernelValue.lean ====
/-
  The kernel's result array, as one function of the argument arrays.

  The launch runs over 8 grid points. Point `t` is handed images `8t … 8t + 7` of the patches (a block
  `[8, 256, 768]`), the whole projection and the whole offsets, and writes back images `8t … 8t + 7` of the result.
  What it writes is the body's stored block (`BodyValue.pay_apply`), so entry `[p, n, e]` of point `t`'s block is
  entry `[8t + p, n, e]` of `PatchEncoder.projected` of the three staged arrays (`flushed_eq`): the block of the
  patches moves with the output's block along the image axis, and the other two windows stay at block 0. The 8 blocks
  tile the 64 images — image `b` lies in the block of point `b / 8` (`covered`) — so the whole array ends at
  `projected` of the staged arrays (`final`), which are the patches of the images, the projection, and the position
  embedding plus the bias (`result_eq`).
-/
import proofs.«143749_j4526895530286_2_alg».proof.Proof.Gen.KernelIdeal.Value
import proofs.«143749_j4526895530286_2_alg».proof.Proof.BodyValue
import proofs.«143749_j4526895530286_2_alg».proof.Proof.Staged

noncomputable section

namespace Cert.KernelIdeal.Encoder

open Cert.KernelIdeal Cert.KernelIdeal.Gen Idealize.ShloMosaic Idealize.ShloMosaic.TcCoe Idealize.SL.Sem
open Idealize.ShloMosaic.Pipeline (Dat)
open Idealize.ShloMosaic.ValueIdx PatchEncoder

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- A stored block is a block of `projected`: if the loaded blocks hold, at the coordinates entry `y` reads, what the
    arrays `P`, `W`, `off` hold at the coordinates entry `i` of `projected` reads, the two entries are equal. -/
theorem block_entry (x0 : FVec Ideal S8x256x768 .bf16) (x1 : FVec Ideal S768x768 .bf16) (x2 : FVec Ideal S256x768 .f32)
    (P : S64x256x768.Idx → EReal) (W : S768x768.Idx → EReal) (off : S256x768.Idx → EReal)
    (y : S8x256x768.Idx) (i : S64x256x768.Idx)
    (h0 : ∀ d : Fin 768, x0 (ix3 (y 0) (y 1) d) = P (ix3 (i 0) (i 1) d))
    (h1 : ∀ d : Fin 768, x1 (ix2 d (y 2)) = W (ix2 d (i 2)))
    (h2 : x2 (ix2 (y 1) (y 2)) = off (ix2 (i 1) (i 2))) :
    k0_pay1 (F := Ideal) x0 x1 x2 y = projected P W off i := by
  obtain ⟨p, n, e, rfl⟩ : ∃ (p : Fin 8) (n : Fin 256) (e : Fin 768), y = ix3 p n e := ⟨y 0, y 1, y 2, eq_ix3 y⟩
  rw [BodyValue.pay_apply]
  unfold projected
  exact congrArg₂ (· + ·) (Finset.sum_congr rfl fun d _ => congrArg₂ (· * ·) (h0 d) (h1 d)) h2

/-- The printed index maps over the 8 grid points: the patches' block index follows the output's along the image axis
    and both are the point's number; every other block index is 0. -/
theorem index_facts : ∀ t : Fin cfg0.N,
    win0_3.index t (0 : Fin 3) = t.val ∧ win0_3.index t (1 : Fin 3) = 0 ∧ win0_3.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- WHAT POINT `t` WRITES BACK is block `t` of `projected` of the three arrays as the launch finds them. -/
theorem flushed_eq (c : Dev nD) (t : Fin cfg0.N) :
    (dats m 0 c).flushed 3 t
      = ((cfg0.win 3).blk t).view.read (Elt Ideal) (projected (V m c main_v3) (V m c main_v4) (V m c main_v7)) := by
  rw [Value.flushed3]
  unfold Gen.out0_3
  rw [View.canon_unit_zero zero3]
  simp only [View.ld_unit_zero (S := S8x256x768) zero3, View.ld_unit_zero (S := S768x768) zero2,
    View.ld_unit_zero (S := S256x768) zero2]
  obtain ⟨o0, o1, o2, p0, p1, p2, w0, w1, f0, f1⟩ := index_facts t
  refine funext fun (y : S8x256x768.Idx) => ?_
  show k0_pay1 (F := Ideal) (iblk m c 0 t) (iblk m c 1 t) (iblk m c 2 t) y
    = projected (V m c main_v3) (V m c main_v4) (V m c main_v7) (((cfg0.win 3).blk t).view.emb y)
  have hy0 : (y 0).val < 8 := (y 0).isLt
  have hy1 : (y 1).val < 256 := (y 1).isLt
  have hy2 : (y 2).val < 768 := (y 2).isLt
  refine block_entry (iblk m c 0 t) (iblk m c 1 t) (iblk m c 2 t) (V m c main_v3) (V m c main_v4) (V m c main_v7)
    y (((cfg0.win 3).blk t).view.emb y) (fun d => ?_) (fun d => ?_) ?_
  · show V m c main_v3 (((cfg0.win 0).blk t).view.emb (ix3 (y 0) (y 1) d)) = V m c main_v3 _
    refine congrArg _ (funext fun a => Fin.ext ?_)
    match a with
    | ⟨0, _⟩ => show win0_0.index t (0 : Fin 3) * 8 + 1 * (y 0).val = win0_3.index t (0 : Fin 3) * 8 + 1 * (y 0).val; omega
    | ⟨1, _⟩ => show win0_0.index t (1 : Fin 3) * 256 + 1 * (y 1).val = win0_3.index t (1 : Fin 3) * 256 + 1 * (y 1).val; omega
    | ⟨2, _⟩ => show win0_0.index t (2 : Fin 3) * 768 + 1 * d.val = d.val; omega
  · show V m c main_v4 (((cfg0.win 1).blk t).view.emb (ix2 d (y 2))) = V m c main_v4 _
    refine congrArg _ (funext fun a => Fin.ext ?_)
    match a with
    | ⟨0, _⟩ => show win0_1.index t (0 : Fin 2) * 768 + 1 * d.val = d.val; omega
    | ⟨1, _⟩ => show win0_1.index t (1 : Fin 2) * 768 + 1 * (y 2).val = win0_3.index t (2 : Fin 3) * 768 + 1 * (y 2).val; omega
  · show V m c main_v7 (((cfg0.win 2).blk t).view.emb (ix2 (y 1) (y 2))) = V m c main_v7 _
    refine congrArg _ (funext fun a => Fin.ext ?_)
    match a with
    | ⟨0, _⟩ => show win0_2.index t (0 : Fin 2) * 256 + 1 * (y 1).val = win0_3.index t (1 : Fin 3) * 256 + 1 * (y 1).val; omega
    | ⟨1, _⟩ => show win0_2.index t (1 : Fin 2) * 768 + 1 * (y 2).val = win0_3.index t (2 : Fin 3) * 768 + 1 * (y 2).val; omega

/-- An index of the result array is in point `t`'s block iff each coordinate is in the block's range on its axis. -/
theorem mem_block (t : Fin cfg0.N) (i : S64x256x768.Idx) :
    i ∈ ((cfg0.win 3).blk t).view.set ↔ ∀ a : Fin 3, win0_3.index t a * S8x256x768.size a ≤ (i a).val
      ∧ (i a).val < win0_3.index t a * S8x256x768.size a + S8x256x768.size a := by
  show i ∈ ((View.whole main_v8).slice (win0_3.rect t)).set ↔ _
  rw [View.set_slice_whole, Rect.mem_set_unit]
  exact Iff.rfl

/-- THE COVER: image `b` of the result is written back by point `b / 8`. -/
theorem covered (i : S64x256x768.Idx) :
    ∃ t : Fin cfg0.N, (cfg0.win 3).flush t = true ∧ i ∈ ((cfg0.win 3).blk t).view.set := by
  have hi0 : (i 0).val < 64 := (i 0).isLt
  have hi1 : (i 1).val < 256 := (i 1).isLt
  have hi2 : (i 2).val < 768 := (i 2).isLt
  have hN : cfg0.N = 8 := N_0
  obtain ⟨t, ht⟩ : ∃ t : Fin cfg0.N, t.val = (i 0).val / 8 := ⟨⟨(i 0).val / 8, by rw [hN]; omega⟩, rfl⟩
  refine ⟨t, flush0_3 t, ?_⟩
  rw [mem_block]
  obtain ⟨o0, o1, o2, -⟩ := index_facts t
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 256 ≤ (i 1).val ∧ (i 1).val < win0_3.index t (1 : Fin 3) * 256 + 256; omega
  | ⟨2, _⟩ => show win0_3.index t (2 : Fin 3) * 768 ≤ (i 2).val ∧ (i 2).val < win0_3.index t (2 : Fin 3) * 768 + 768; omega

/-- THE ARRAY after the run: `projected` of the three staged arrays. -/
theorem final (c : Dev nD) :
    (dats m 0 c).arrAt 3 cfg0.N = projected (V m c main_v3) (V m c main_v4) (V m c main_v7) :=
  (dats m 0 c).arrAt_eq_of_cover 3 _ (fun t _ => flushed_eq m c t) covered

/-- The kernel's result, from its four arguments: the encoder of the images' patches. -/
abbrev result (c : Dev nD) : S64x256x768.Idx → EReal :=
  encoded (Staged.patches (m ((c : Thread nD τ).loc main_arg0))) (m ((c : Thread nD τ).loc main_arg1))
    (m ((c : Thread nD τ).loc main_arg2)) (m ((c : Thread nD τ).loc main_arg3))

/-- The staged arrays are the patches, the projection and the offsets, so the array ends at the encoder. -/
theorem result_eq (c : Dev nD) : (dats m 0 c).arrAt 3 cfg0.N = result m c := by
  rw [final, Staged.V_patches, Staged.V_projection, Staged.V_offsets]
  rfl

/-- The run, read: the result array at the encoder of the arguments, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_eq m c), (h c).2⟩) (Value.run_blocks m ρ)

end Cert.KernelIdeal.Encoder

end
-- ==== Proof.RefEncoded.lean ====
/-
  The reference computes the encoder. Its program flattens the images into patches (a reshape, a transpose and a
  reshape: `val_main_v2`, kept whole here, because the kernel's program starts with the very same three operations),
  contracts the patches with the projection over the 768 patch coordinates, adds the bias spread over images and
  patches, and adds the position embedding spread over images. Read at an index `[b, n, e]`, stage by stage, that is

      ((Σ_d patches[b, n, d] · W[d, e]) + bias[e]) + pos[n, e],

  the encoder with the two offsets added one after the other (`PatchEncoder.encoded_apply`).
-/
import proofs.«143749_j4526895530286_2_alg».proof.Proof.Gen.ReferenceIdeal.Read
import proofs.«143749_j4526895530286_2_alg».proof.Proof.Encoded

noncomputable section

namespace Cert.ReferenceIdeal.RefValue

open Cert.ReferenceIdeal Cert.ReferenceIdeal.Read Idealize.ShloMosaic Idealize.ShloMosaic.ValueIdx

/-- The reference's last stage is the encoder of its patches, its projection, its bias and its position embedding. -/
theorem result_eq (x0 : (⟨S64x256x256x3, .f32⟩ : BufTy).Contents (Elt Ideal)) (x1 : (⟨S768x768, .f32⟩ : BufTy).Contents (Elt Ideal))
    (x2 : (⟨S768, .f32⟩ : BufTy).Contents (Elt Ideal)) (x3 : (⟨S256x768, .f32⟩ : BufTy).Contents (Elt Ideal)) :
    val_main_v9 (F := Ideal) x0 x1 x2 x3 = PatchEncoder.encoded (val_main_v2 (F := Ideal) x0) x1 x2 x3 := by
  funext i
  -- the stages' index functions, composed, are the coordinates the encoder names
  have el : ∀ k : Fin 768, lidx_main_v3 i k = ix3 (i 0) (i 1) k := fun k => funext fun a => Fin.ext (by
    match a with
    | ⟨0, _⟩ => rfl
    | ⟨1, _⟩ => rfl
    | ⟨2, _⟩ => rfl)
  have er : ∀ k : Fin 768, ridx_main_v3 i k = ix2 k (i 2) := fun k => funext fun a => Fin.ext (by
    match a with
    | ⟨0, _⟩ => rfl
    | ⟨1, _⟩ => rfl)
  have eb : idx_main_v4 (idx_main_v5 i) = ix1 (i 2) := funext fun a => Fin.ext (by
    match a with
    | ⟨0, _⟩ => rfl)
  have ep : idx_main_v7 (idx_main_v8 i) = ix2 (i 1) (i 2) := funext fun a => Fin.ext (by
    match a with
    | ⟨0, _⟩ => rfl
    | ⟨1, _⟩ => rfl)
  rw [PatchEncoder.encoded_apply, val_main_v9_apply, val_main_v6_apply, val_main_v3_apply, val_main_v5_apply,
    val_main_v4_apply, val_main_v8_apply, val_main_v7_apply, eb, ep]
  simp only [el, er]
  rfl

end Cert.ReferenceIdeal.RefValue

end
-- ==== Proof.lean ====
/-
  A patch encoder: a batch of 64 images `[64, 256, 256, 3]` is cut into 16 × 16 patches, every patch is flattened to 768
  numbers and projected by a `[768, 768]` matrix, and a bias `[768]` and a position embedding `[256, 768]` are added:

      out[b, n, e] = (Σ_d patches[b, n, d] · W[d, e]) + bias[e] + pos[n, e].

  The kernel and the reference cut the patches with the same three layout operations. The kernel then narrows the patches
  and the projection to a 16-bit format (no change at the ideal values), adds the bias to the position embedding once, and
  launches 8 grid points, each of which multiplies the patches of 8 images by the projection into a zero accumulator and
  adds the offsets; the reference contracts all 64 images at once, adds the bias, then the position embedding. At the ideal
  values both results are `PatchEncoder.encoded` of the same four arrays: the product into a zero accumulator and the
  host's contraction are the same sum over the 768 patch coordinates, the 8 blocks tile the 64 images, and the two orders
  of adding the offsets agree because addition of extended reals is commutative and associative at every value — so the
  finiteness of the inputs is never used. The ideal pass rewrote nothing, so the kernel's idealization is its own text.
-/
import proofs.«143749_j4526895530286_2_alg».proof.Defs
import proofs.«143749_j4526895530286_2_alg».proof.Proof.Gen.Kernel
import proofs.«143749_j4526895530286_2_alg».proof.Proof.Gen.Kernel.Skeleton
import proofs.«143749_j4526895530286_2_alg».proof.Proof.Gen.Kernel.Launch
import proofs.«143749_j4526895530286_2_alg».proof.Proof.Gen.Kernel.Points
import proofs.«143749_j4526895530286_2_alg».proof.Proof.Gen.Kernel.Frame
import proofs.«143749_j4526895530286_2_alg».proof.Proof.Gen.KernelIdeal
import proofs.«143749_j4526895530286_2_alg».proof.Proof.Gen.KernelIdeal.Skeleton
import proofs.«143749_j4526895530286_2_alg».proof.Proof.Gen.KernelIdeal.Launch
import proofs.«143749_j4526895530286_2_alg».proof.Proof.Gen.KernelIdeal.Points
import proofs.«143749_j4526895530286_2_alg».proof.Proof.Gen.KernelIdeal.Frame
import proofs.«143749_j4526895530286_2_alg».proof.Proof.Gen.ReferenceIdeal
import proofs.«143749_j4526895530286_2_alg».proof.Proof.Gen.Pre_finite_inputs
import proofs.«143749_j4526895530286_2_alg».proof.Proof.Gen.KernelIdeal.Value
import proofs.«143749_j4526895530286_2_alg».proof.Proof.Gen.ReferenceIdeal.Run
import proofs.«143749_j4526895530286_2_alg».proof.Proof.Gen.ReferenceIdeal.Read
import proofs.«143749_j4526895530286_2_alg».proof.Proof.KernelValue
import proofs.«143749_j4526895530286_2_alg».proof.Proof.RefEncoded
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten, so there is nothing to preserve. -/
theorem preserves : Cert.preserves_Kernel_KernelIdeal := trivial

/-- Both programs cut the images into patches by the same reshape, transpose and reshape. -/
theorem patches_eq (x : Cert.KernelIdeal.S64x256x256x3.Idx → EReal) :
    Cert.ReferenceIdeal.Read.val_main_v2 (F := Ideal) x = Cert.KernelIdeal.Staged.patches x := rfl

/-- From arguments that agree, the kernel's result array and the reference's both end at the encoder of the arguments. -/
theorem algebraic : Cert.algebraic_KernelIdeal_ReferenceIdeal := by
  intro m ρ m' ρ' _ hagree
  refine ⟨fun c => Cert.KernelIdeal.Encoder.result m c, Cert.KernelIdeal.Encoder.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, (hagree c).1, (hagree c).2.1,
    (hagree c).2.2.1, (hagree c).2.2.2, patches_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
